-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x8192 : Shape := ⟨2, ![8192, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S4096x8192 .f32) (main_arg1 : FVec F S8192x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S4096x8192 : Shape := ⟨2, ![4096, 8192]⟩
abbrev S8192x8192 : Shape := ⟨2, ![8192, 8192]⟩
abbrev S1x8192 : Shape := ⟨2, ![1, 8192]⟩
abbrev S1024x2048 : Shape := ⟨2, ![1024, 2048]⟩
abbrev S1x2048 : Shape := ⟨2, ![1, 2048]⟩
abbrev S2048 : Shape := ⟨1, ![2048]⟩
abbrev S4096x1 : Shape := ⟨2, ![4096, 1]⟩
abbrev S512x8192 : Shape := ⟨2, ![512, 8192]⟩
abbrev S512x1 : Shape := ⟨2, ![512, 1]⟩
abbrev S512 : Shape := ⟨1, ![512]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S1x8192, .f32⟩
  | .hbm, ⟨3, _⟩ => ⟨S4096x1, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S512x8192, .f32⟩
  | .local _ .vmem, ⟨5, _⟩ => ⟨S512x8192, .f32⟩
  | .local _ .vmem, ⟨6, _⟩ => ⟨S1x8192, .f32⟩
  | .local _ .vmem, ⟨7, _⟩ => ⟨S512x1, .f32⟩
  | .local _ .vmem, ⟨8, _⟩ => ⟨S512x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  inb_S512x8192_S512x8192_0_0 : ∀ a, (![0, 0] : Fin 2 → Nat) a + S512x8192.size a ≤ S512x8192.size a
  h_S512x8192 : 0 < S512x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S512x8192 : S1x8192.Broadcasts S512x8192
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S4096x8192.size a
  hwx1_0 : ∀ i : grid1.Coords, EltTy.bits .f32 = 32 ∨ (Rect.block (s := S4096x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)

variable [Facts₀]

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x8192 : Shape := ⟨2, ![4096, 8192]⟩
abbrev S8192x8192 : Shape := ⟨2, ![8192, 8192]⟩
abbrev S_ : Shape := ⟨0, ![]⟩
abbrev S4096 : Shape := ⟨1, ![4096]⟩
abbrev S4096x1 : Shape := ⟨2, ![4096, 1]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x8192_S8192x8192_S4096x8192_1_1_0_0_n_n_wf : DotDims.WF S4096x8192 S8192x8192 S4096x8192 [1] [1] [0] [0] [] []

variable [Facts₀]

def dot_S4096x8192_S8192x8192_S4096x8192_1_1_0_0_n_n : DotDims S4096x8192 S8192x8192 S4096x8192 where
  lhsContracting := [1]
  rhsContracting := [1]
  lhsNonContracting := [0]
  rhsNonContracting := [0]
  lhsBatch := []
  rhsBatch := []
  wf := dot_S4096x8192_S8192x8192_S4096x8192_1_1_0_0_n_n_wf

class Facts : Prop extends Facts₀ where

variable [Facts]
-- ==== Proof.Spec.lean ====
/-
  The two sides of the claim as functions of the argument arrays, over the extended reals.

  x : [4096, 8192], W : [8192, 8192].  The reference computes, for each row b of x,
      out[b] = (0 + Σ_h ((Σ_i x[b,i]·W[h,i]) / 2)) · 1.5 .
  The kernel first forms the scaled column sums of W,
      v[i] = (0 + Σ_{s<8} Σ_{r<1024} W[1024·s + r, i]) · 0.75     (eight row blocks of 1024 rows, added in order),
  and then out[b] = Σ_i x[b,i]·v[i].
  The float literals stay as the words the programs spell; their values are read only where the two sides are joined.
-/
import Idealize.ShloMosaic.PureOps.Ideal
import Idealize.ShloMosaic.Lib.ValueIdx

noncomputable section

namespace Cert.WsumDot

open Idealize.ShloMosaic Idealize.ShloMosaic.ValueIdx

/-- The shapes of x, W, the row of column sums, and the result. -/
abbrev SX : Shape := ⟨2, ![4096, 8192]⟩
abbrev SW : Shape := ⟨2, ![8192, 8192]⟩
abbrev SV : Shape := ⟨2, ![1, 8192]⟩
abbrev SO : Shape := ⟨2, ![4096, 1]⟩

/-- The words of 0, 0.75, 1.5 and 2 as extended reals. -/
abbrev zeroE : EReal := Ideal.ofBits .f32 0x00000000#32
abbrev c075 : EReal := Ideal.ofBits .f32 0x3F400000#32
abbrev c15 : EReal := Ideal.ofBits .f32 0x3FC00000#32
abbrev c2 : EReal := Ideal.ofBits .f32 0x40000000#32

/-- Row `1024·s + r` of W: row `r` of the `s`-th block of 1024 rows. -/
abbrev blockRow (s : Fin 8) (r : Fin 1024) : Fin 8192 :=
  ⟨1024 * s.val + r.val, by have := s.isLt; have := r.isLt; omega⟩

/-- The scaled column sums of W: column `i` summed block of rows by block of rows from zero, then times 0.75. -/
def colsum (W : SW.Idx → EReal) : SV.Idx → EReal := fun j =>
  (zeroE + ∑ s : Fin 8, ∑ r : Fin 1024, W (ix2 (blockRow s r) (j 1))) * c075

/-- Each row of x against a row vector v: Σ_i x[b,i]·v[0,i]. -/
def rowdot (X : SX.Idx → EReal) (v : SV.Idx → EReal) : SO.Idx → EReal := fun i =>
  ∑ k : Fin 8192, X (ix2 (i 0) k) * v (ix2 (0 : Fin 1) k)

/-- The kernel's result. -/
def kernelOut (X : SX.Idx → EReal) (W : SW.Idx → EReal) : SO.Idx → EReal := rowdot X (colsum W)

/-- The reference's result: (0 + Σ_h ((Σ_i x[b,i]·W[h,i]) / 2)) · 1.5. -/
def refOut (X : SX.Idx → EReal) (W : SW.Idx → EReal) : SO.Idx → EReal := fun i =>
  (zeroE + ∑ h : Fin 8192, Ideal.div (∑ k : Fin 8192, X (ix2 (i 0) k) * W (ix2 h k)) c2) * c15

end Cert.WsumDot

end
-- ==== Proof.Algebra.lean ====
/-
  The two results agree when every entry of x and W is a real number.

  With real entries every operation in both programs is the real one, so the claim is the identity
      Σ_k x[b,k]·((Σ_s Σ_r W[1024·s + r, k])·0.75) = (Σ_h (Σ_k x[b,k]·W[h,k])·(1/2))·1.5 ,
  which holds because the eight blocks of 1024 rows list every row of W exactly once, sums commute with one
  another and with multiplication by a constant, and 0.75 = (1/2)·1.5.
-/
import Idealize.ShloMosaic.PureOps.Ideal.Laws
import proofs.«138940_j73315091744718_2_alg».proof.Proof.Spec

noncomputable section

namespace Cert.WsumDot

open Idealize.ShloMosaic Idealize.ShloMosaic.ValueIdx

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every row index below 8192 is 1024·s + r for exactly one block s < 8 and one offset r < 1024, so a sum over
    all rows is the sum over the blocks of the sums over each block's rows. -/
theorem sum_blockRow {M : Type*} [AddCommMonoid M] (g : Fin 8192 → M) :
    ∑ h : Fin 8192, g h = ∑ s : Fin 8, ∑ r : Fin 1024, g (blockRow s r) := by
  rw [← Fintype.sum_prod_type']
  refine (Fintype.sum_equiv (finProdFinEquiv (m := 8) (n := 1024)) _ _ (fun p => ?_)).symm
  congr 1
  exact Fin.ext (by show 1024 * p.1.val + p.2.val = _; rw [finProdFinEquiv_apply_val]; omega)

/-- The word 0x3F400000 is 0.75. -/
theorem c075_eq : c075 = ((0.75 : ℝ) : EReal) := by
  simp [Ideal.ofBits, Ideal.ieee, -EReal.coe_mul]; norm_num

/-- The word 0x3FC00000 is 1.5. -/
theorem c15_eq : c15 = ((1.5 : ℝ) : EReal) := by
  simp [Ideal.ofBits, Ideal.ieee, -EReal.coe_mul]; norm_num

/-- The word 0x40000000 is 2. -/
theorem c2_eq : c2 = ((2 : ℝ) : EReal) := by
  simp [Ideal.ofBits, Ideal.ieee, -EReal.coe_mul]; norm_num

/-- The word 0x00000000 is 0. -/
theorem zeroE_eq : zeroE = 0 := Ideal.ofBits_zero_f32

/-- With real entries the kernel's result is the reference's: both are Σ_k x[b,k]·(Σ_h W[h,k])·0.75. The words are
    read as the reals 0, 0.75, 1.5 and 2, the division by 2 as the product with 1/2, and every sum and product as the
    real one; the block sums are joined into the sum over all rows, the two sums are exchanged, the constants are
    pulled out, and 0.75 = (1/2)·1.5. -/
theorem kernelOut_eq_refOut (X : SX.Idx → EReal) (W : SW.Idx → EReal)
    (hX : ∀ i, ∃ r : ℝ, X i = (r : EReal)) (hW : ∀ i, ∃ r : ℝ, W i = (r : EReal)) :
    kernelOut X W = refOut X W := by
  choose xr hxr using hX
  choose wr hwr using hW
  funext i
  have h1 : ∀ k : Fin 8192, (ix2 (0 : Fin 1) k : SV.Idx) 1 = k := fun _ => rfl
  simp only [kernelOut, rowdot, colsum, refOut, h1, hxr, hwr, zeroE_eq, c075_eq, c15_eq, c2_eq,
    Ideal.div_coe (two_ne_zero : (2 : ℝ) ≠ 0), zero_add, ← EReal.coe_mul, ← coe_sum]
  have hb : ∀ k : Fin 8192, (∑ s : Fin 8, ∑ r : Fin 1024, wr (ix2 (blockRow s r) k)) = ∑ h : Fin 8192, wr (ix2 h k) :=
    fun k => (sum_blockRow (fun h => wr (ix2 h k))).symm
  simp only [hb]
  congr 1
  rw [← Finset.sum_mul, Finset.sum_comm]
  simp only [← Finset.mul_sum]
  rw [Finset.sum_mul, Finset.sum_mul]
  refine Finset.sum_congr rfl fun k _ => ?_
  ring

end Cert.WsumDot

end
-- ==== Proof.RefSide.lean ====
/-
  The reference program's value is the function refOut of its two arguments.

  Read one operation at a time, the reference multiplies by the word of 1.5 the row sums, started from the word of 0,
  of the contraction Σ_k x[b,k]·W[h,k] divided by the word of 2. The generated index functions are the pairs of
  coordinates they spell, so each operand is read at (b, k) or (h, k).
-/
import proofs.«138940_j73315091744718_2_alg».proof.Proof.Gen.ReferenceIdeal.Read
import proofs.«138940_j73315091744718_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The row sum of result row b reads the quotient at (b, k). -/
theorem idx3_eq (i : S4096x1.Idx) (k : Fin 8192) : idx_main_v3 (idx_main_v4 i) k = ix2 (n0 := 4096) (n1 := 8192) (i 0) k :=
  funext fun a => Fin.ext (by match a with | ⟨0, _⟩ => rfl | ⟨1, _⟩ => rfl)

/-- The contraction's entry (b, h) reads x at (b, k). -/
theorem lidx_eq (b : Fin 4096) (h k : Fin 8192) : lidx_main_v0 (ix2 b h) k = ix2 b k :=
  funext fun a => Fin.ext (by match a with | ⟨0, _⟩ => rfl | ⟨1, _⟩ => rfl)

/-- The contraction's entry (b, h) reads W at (h, k). -/
theorem ridx_eq (b : Fin 4096) (h k : Fin 8192) : ridx_main_v0 (ix2 b h) k = ix2 h k :=
  funext fun a => Fin.ext (by match a with | ⟨0, _⟩ => rfl | ⟨1, _⟩ => rfl)

/-- The reference's result at row b is (0 + Σ_h ((Σ_k x[b,k]·W[h,k]) / 2)) · 1.5, with the three constants as the
    words the program spells. -/
theorem ref_eq (x0 : (⟨Cert.ReferenceIdeal.S4096x8192, .f32⟩ : BufTy).Contents (Elt Ideal))
    (x1 : (⟨Cert.ReferenceIdeal.S8192x8192, .f32⟩ : BufTy).Contents (Elt Ideal)) :
    Cert.ReferenceIdeal.Read.val_main_v6 (F := Ideal) x0 x1 = Cert.WsumDot.refOut x0 x1 := by
  funext i
  rw [val_main_v6_apply, val_main_v4_apply, val_main_v3_apply, val_main_v5_apply, val_main_cst_1_apply,
    val_main_cst_0_apply]
  simp only [idx3_eq, Ideal.mulf_def, Ideal.ofBits_def]
  unfold Cert.WsumDot.refOut
  refine congrArg (· * _) (congrArg (_ + ·) (Finset.sum_congr rfl fun h _ => ?_))
  rw [val_main_v2_apply, val_main_v0_apply, val_main_v1_apply, val_main_cst_apply, Ideal.hostDivf_def, Ideal.ofBits_def]
  refine congrArg (Ideal.div · _) (Finset.sum_congr rfl fun k _ => ?_)
  exact congrArg₂ (· * ·) (congrArg x0 (lidx_eq (i 0) h k)) (congrArg x1 (ridx_eq (i 0) h k))

end Cert.ReferenceIdeal.RefValue

end
-- ==== Proof.Finite.lean ====
/-
  The precondition says every entry of x and of W is a real number.

  The precondition is the conjunction, over all entries of both arrays, of |entry| < +∞ . An extended real whose
  absolute value max(a, -a) is below +∞ is neither +∞ nor -∞, so it is a real number.
-/
import proofs.«138940_j73315091744718_2_alg».proof.Defs
import proofs.«138940_j73315091744718_2_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.SL.Sem Idealize.ShloMosaic.ValueIdx

/-- The scalar shape has one index. -/
instance : Subsingleton Cert.Pre_finite_inputs.S_.Idx := ⟨fun _ _ => funext fun d => d.elim0⟩

/-- A one-bit word made from a truth value is 1 exactly when the value is true. -/
theorem ofBool_eq_one (b : Bool) : BitVec.ofBool b = 1#1 ↔ b = true := by cases b <;> decide

/-- The word 0x7F800000 is +∞. -/
theorem ofBits_inf : Ideal.ofBits .f32 0x7F800000#32 = ⊤ := by simp [Ideal.ofBits, Ideal.ieee]

/-- If max(a, -a) < +∞ then a is a real number: at a = +∞ the maximum is +∞, and at a = -∞ it is -(-∞) = +∞. -/
theorem real_of_abs_lt_inf (a : EReal)
    (h : Ideal.cmp .olt (max a (-a)) (Ideal.ofBits .f32 0x7F800000#32) = 1#1) : ∃ r : ℝ, a = (r : EReal) := by
  rw [ofBits_inf] at h
  unfold Ideal.cmp at h
  rw [ofBool_eq_one] at h
  have h' : max a (-a) < ⊤ := of_decide_eq_true h
  induction a using EReal.rec with
  | bot => simp at h'
  | coe r => exact ⟨r, rfl⟩
  | top => simp at h'

/-- Under the precondition every entry of both argument arrays is a real number. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have e := congrFun (h c) ValueIdx.ix0
  unfold Cert.Pre_finite_inputs.fn at e
  dsimp only at e
  simp only [andi] at e
  rw [IntOp.andi_eq_one] at e
  obtain ⟨e0, e1⟩ := e
  refine ⟨fun i => ?_, fun i => ?_⟩
  · exact real_of_abs_lt_inf _ (Host.reduce_andi_all _ _ _ _ _ e0 i)
  · exact real_of_abs_lt_inf _ (Host.reduce_andi_all _ _ _ _ _ e1 i)

end Cert.Proof.Finite

end
-- ==== Proof.Run.lean ====
/-
  The kernel program's run with its RESULT array named.

  The program is two pipelined regions in a row.  Every weakly fair execution from a memory `m` with zero counters
  terminates, and in every final state the result array holds what the second region's write-backs leave
  (`(dat1 (V1 m ρ) c).arrAt 2 cfg1.N`: the proof data of the second region, entered at the contents the first region
  leaves), while the two argument arrays are as launched.  The thread state after the last region holds EVERY unscoped
  buffer at the last boundary's contents, so reading the result buffer there — beside the two arguments — gives the
  statement; the segments, the launch and the chaining are the ones the frame theorem of this program is built from.
-/
import proofs.«138940_j73315091744718_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is the second region's output array after its last write-back. -/
theorem W2_main_v1 (c : Dev nD) :
    W2 m ρ c (Proc.devRef .tc main_v1) = (dat1 (V1 m ρ) c).arrAt 2 cfg1.N :=
  W2_arr m ρ c 2

/-- The first region's output array, as the second region finds it, is what the first region's write-backs leave. -/
theorem V1_main_v0 (c : Dev nD) :
    V1 m ρ c main_v0 = (dat0 (V0 m ρ) c).arrAt 1 cfg0.N :=
  W1_arr m ρ c 1

/-- The first argument, as the second region finds it, is as launched (the first region does not touch it). -/
theorem V1_main_arg0 (c : Dev nD) :
    V1 m ρ c main_arg0 = m ((c : Thread nD τ).loc main_arg0) :=
  (W1_of_ne m ρ c main_arg0 (by decide)).trans rfl

/-- The second argument, as the first region finds it, is as launched. -/
theorem V0_main_arg1 (c : Dev nD) :
    V0 m ρ c main_arg1 = m ((c : Thread nD τ).loc main_arg1) := rfl

set_option backward.isDefEq.respectTransparency.types false in
/-- Every weakly fair execution of the program terminates, nothing faulting; the result array ends at the last
    boundary's contents and the arguments end as launched. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c)⟩)

end Cert.KernelIdeal.RunValue

end
-- ==== Proof.ColSumPieces.lean ====
/-
  What the first region's body leaves in its output block, case by case, as values.

  The body at a grid point (column block q, row block h) holds a [1, 2048] output block that stays in place over the
  eight row blocks of one column block.  With `x` the [1024, 2048] block of W at the point and `acc` what the block
  held before:
    first row block (h = 0):   the block is reset to zero and the column sums of `x` are added:  0 + colsum x;
    a middle row block:        acc + colsum x;
    last row block (h = 7):    (acc + colsum x) · 0.75.
  Each is the canonical reading of the stores the body makes, the later store reading the earlier one back.
-/
import proofs.«138940_j73315091744718_2_alg».proof.Proof.Gen.KernelIdeal.Frame
import Idealize.ShloMosaic.Lib.Pipeline.Value
import Idealize.ShloMosaic.Lib.Tactic

noncomputable section

namespace Cert.KernelIdeal.ColSum

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A middle row block: the block ends at the sum of what it held and the column sums of the input block. -/
theorem out_mid (c : Dev nD) (i : grid0.Coords) (a2 : Memref sig .tc .vmem S1024x2048 .f32) (h2 : a2.IsWhole)
    (a3 : Memref sig .tc .vmem S1x2048 .f32) (h3 : a3.IsWhole) (hc0 : ¬cond0_0 i) (hc1 : ¬cond0_1 i)
    (x : Vec F S1024x2048 .f32) (acc : Vec F S1x2048 .f32) :
    out0_B_1 c i a2 h2 a3 h3 hc0 hc1 x acc = k0_pay2 acc x := by
  unfold out0_B_1
  rw [View.read_writes_eq_canon _ _ _ (cover0_B_1 c i a2 h2 a3 h3 hc0 hc1 x acc)]
  unfold kernelRun0_B
  dsimp only
  rw [View.canon_unit_zero hz]
  simp only [View.readAt_eq_ld, h2.read_unread, h3.read_unread, View.ld_unit_zero (S := S1024x2048) hz,
    View.ld_unit_zero (S := S1x2048) hz]

/-- The first row block: the block is reset to zero, read back, and the column sums of the input block added. -/
theorem out_first (c : Dev nD) (i : grid0.Coords) (a2 : Memref sig .tc .vmem S1024x2048 .f32) (h2 : a2.IsWhole)
    (a3 : Memref sig .tc .vmem S1x2048 .f32) (h3 : a3.IsWhole) (hc0 : cond0_0 i) (hc1 : ¬cond0_1 i)
    (x : Vec F S1024x2048 .f32) :
    out0_A_1 c i a2 h2 a3 h3 hc0 hc1 x = k0_pay2 (k0_pay1 (F := F)) x := by
  unfold out0_A_1
  rw [View.read_writes_eq_canon _ _ _ (cover0_A_1 c i a2 h2 a3 h3 hc0 hc1 x)]
  unfold kernelRun0_A
  dsimp only
  sl_unfold_words
  rw [View.canon_cons_unit_zero (S := S1x2048) hz, View.readCov_unit_zero (S := S1x2048) _ hz]
  simp only [View.readAt_eq_ld, h2.read_unread, View.ld_unit_zero (S := S1024x2048) hz,
    View.ld_unit_zero (S := S1x2048) hz]

/-- The last row block: the sum as in a middle block, read back and scaled by 0.75. -/
theorem out_last (c : Dev nD) (i : grid0.Coords) (a2 : Memref sig .tc .vmem S1024x2048 .f32) (h2 : a2.IsWhole)
    (a3 : Memref sig .tc .vmem S1x2048 .f32) (h3 : a3.IsWhole) (hc0 : ¬cond0_0 i) (hc1 : cond0_1 i)
    (x : Vec F S1024x2048 .f32) (acc : Vec F S1x2048 .f32) :
    out0_C_1 c i a2 h2 a3 h3 hc0 hc1 x acc = k0_pay3 (k0_pay2 acc x) := by
  unfold out0_C_1
  rw [View.read_writes_eq_canon _ _ _ (cover0_C_1 c i a2 h2 a3 h3 hc0 hc1 x acc)]
  unfold kernelRun0_C
  dsimp only
  sl_unfold_words
  rw [View.canon_cons_unit_zero (S := S1x2048) hz, View.readCov_unit_zero (S := S1x2048) _ hz]
  simp only [View.readAt_eq_ld, h2.read_unread, h3.read_unread, View.ld_unit_zero (S := S1024x2048) hz,
    View.ld_unit_zero (S := S1x2048) hz]

end Cert.KernelIdeal.ColSum

end
-- ==== Proof.ColSumValue.lean ====
/-
  The first region's output array after its last write-back: the scaled column sums of W.

  Grid point t = 8·q + h works on column block q (2048 columns) and row block h (1024 rows) of W.  The output block
  (row 0, column block q) stays in place over h = 0 … 7; after point 8·q + j (j < 7) it holds, at column l,
      0 + Σ_{s ≤ j} Σ_{r < 1024} W[1024·s + r, 2048·q + l],
  and after point 8·q + 7 that sum for s ≤ 7, times 0.75; only then is the block written back.  The written blocks
  tile the [1, 8192] array, which therefore ends at `colsum W`.
-/
import proofs.«138940_j73315091744718_2_alg».proof.Proof.ColSumPieces
import proofs.«138940_j73315091744718_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ColSum

open Cert.KernelIdeal Cert.KernelIdeal.Gen
open Idealize.ShloMosaic Idealize.ShloMosaic.TcCoe Idealize.SL.Sem Idealize.ShloMosaic.ValueIdx
open Idealize.ShloMosaic.Pipeline (Dat)
open Cert.WsumDot (zeroE c075)

/-! ## The body's three payloads at a column -/

/-- The reset block is zero at every column. -/
theorem reset_apply (l : Fin 2048) : k0_pay1 (F := Ideal) (ix2 (0 : Fin 1) l) = zeroE := rfl

/-- The accumulating store: what the block held plus the sum of the input block's column. -/
theorem accum_apply (acc : Vec Ideal S1x2048 .f32) (x : Vec Ideal S1024x2048 .f32) (l : Fin 2048) :
    k0_pay2 acc x (ix2 (0 : Fin 1) l) = acc (ix2 (0 : Fin 1) l) + ∑ r : Fin 1024, x (ix2 r l) := by
  unfold k0_pay2
  rw [shapeCast_self]
  show acc (ix2 (0 : Fin 1) l) + _ = _
  refine congrArg (acc (ix2 (0 : Fin 1) l) + ·) ?_
  refine (shapeCast_a_1a_apply _ shapeCasts_S2048_S1x2048 (0 : Fin 1) l).trans ?_
  refine (Ideal.multiReduction_add_single x 0x00000000#32 reduces_S1024x2048_S2048 (.inl rfl) rfl (ix1 l)).trans ?_
  refine Finset.sum_congr rfl fun r _ => congrArg x ?_
  funext a
  apply Fin.ext
  match a with
  | ⟨0, _⟩ => rfl
  | ⟨1, _⟩ => rfl

/-- The scaling store: the block times 0.75. -/
theorem scale_apply (v : Vec Ideal S1x2048 .f32) (l : Fin 2048) :
    k0_pay3 v (ix2 (0 : Fin 1) l) = v (ix2 (0 : Fin 1) l) * c075 := by
  unfold k0_pay3
  rw [shapeCast_self]
  rfl

/-! ## Where the blocks sit, and the input block read at a row and column -/

variable (V : (c : Dev nD) → (b : Ref sig .tc) → Buf (Elt Ideal) ((c : Thread nD τ).loc b))

/-- Point t reads row block `t % 8`, column block `t / 8` of W and holds column block `t / 8` of the output row. -/
theorem idx_facts : ∀ t : Fin cfg0.N, win0_0.index t (0 : Fin 2) = t.val % 8 ∧ win0_0.index t (1 : Fin 2) = t.val / 8
    ∧ win0_1.index t (0 : Fin 2) = 0 ∧ win0_1.index t (1 : Fin 2) = t.val / 8 :=
  (by decide +kernel : ∀ t : Fin grid0.N, _)

/-- W read at natural-number coordinates (zero outside the array: never used there). -/
def Wn (W : Cert.WsumDot.SW.Idx → EReal) (a b : ℕ) : EReal :=
  if h : a < 8192 ∧ b < 8192 then W (ix2 ⟨a, h.1⟩ ⟨b, h.2⟩) else 0

/-- Row r, column l of the input block at point n is W at row 1024·(n % 8) + r, column 2048·(n / 8) + l. -/
theorem iblk_apply (c : Dev nD) (n : ℕ) (hn : n < cfg0.N) (r : Fin 1024) (l : Fin 2048) :
    (iblk0 V c 0 ⟨n, hn⟩ : Vec Ideal S1024x2048 .f32) (ix2 r l)
      = Wn (V c main_arg1) (1024 * (n % 8) + r.val) (2048 * (n / 8) + l.val) := by
  have hN : n < 32 := lt_of_lt_of_eq hn N_0
  obtain ⟨e0, e1, -, -⟩ := idx_facts ⟨n, hn⟩
  have hr := r.isLt
  have hl := l.isLt
  unfold Wn
  rw [dif_pos ⟨by omega, by omega⟩]
  unfold iblk0
  rw [View.read_apply]
  show V c main_arg1 _ = V c main_arg1 _
  refine congrArg (V c main_arg1) ?_
  funext a
  apply Fin.ext
  match a with
  | ⟨0, _⟩ =>
    show win0_0.index ⟨n, hn⟩ (0 : Fin 2) * 1024 + 1 * r.val = 1024 * (n % 8) + r.val
    rw [e0]; dsimp only; omega
  | ⟨1, _⟩ =>
    show win0_0.index ⟨n, hn⟩ (1 : Fin 2) * 2048 + 1 * l.val = 2048 * (n / 8) + l.val
    rw [e1]; dsimp only; omega

/-! ## The running sum in the output block -/

/-- The sum of column `2048·q + l` of W over row block s. -/
def blockSum (W : Cert.WsumDot.SW.Idx → EReal) (q s l : ℕ) : EReal :=
  ∑ r : Fin 1024, Wn W (1024 * s + r.val) (2048 * q + l)

/-- The column sum of the input block at point 8·q + j is `blockSum` at (q, j). -/
theorem iblk_sum (c : Dev nD) (q j : ℕ) (hj : j < 8) (h : 8 * q + j < cfg0.N) (l : Fin 2048) :
    (∑ r : Fin 1024, (iblk0 V c 0 ⟨8 * q + j, h⟩ : Vec Ideal S1024x2048 .f32) (ix2 r l) : EReal)
      = blockSum (V c main_arg1) q j l.val := by
  unfold blockSum
  refine Finset.sum_congr rfl fun r _ => ?_
  rw [iblk_apply V c (8 * q + j) h r l, show (8 * q + j) % 8 = j by omega, show (8 * q + j) / 8 = q by omega]

/-- After point 8·q + j (j < 7) the output block holds, at column l, zero plus the block sums of row blocks 0 … j. -/
theorem acc_apply (c : Dev nD) (q : ℕ) : ∀ (j : ℕ), j < 7 → ∀ (h : 8 * q + j < cfg0.N) (l : Fin 2048),
    outsAt0 V c (8 * q + j) h (ix2 (0 : Fin 1) l)
      = zeroE + ∑ s ∈ Finset.range (j + 1), blockSum (V c main_arg1) q s l.val
  | 0, _, h, l => by
    have h0 : (⟨8 * q + 0, h⟩ : Fin cfg0.N).val % 8 = 0 := by dsimp only; omega
    have h1 : ¬(⟨8 * q + 0, h⟩ : Fin cfg0.N).val % 8 = 7 := by dsimp only; omega
    rw [outsAt0_A V c ⟨8 * q + 0, h⟩ h0 h1, out_first, accum_apply, reset_apply, Finset.sum_range_one,
      iblk_sum V c q 0 (by omega) h l]
  | j + 1, hj, h, l => by
    have h0 : ¬(⟨8 * q + (j + 1), h⟩ : Fin cfg0.N).val % 8 = 0 := by dsimp only; omega
    have h1 : ¬(⟨8 * q + (j + 1), h⟩ : Fin cfg0.N).val % 8 = 7 := by dsimp only; omega
    rw [outsAt0_B V c ⟨8 * q + (j + 1), h⟩ h0 h1, out_mid, accum_apply, iblk_sum V c q (j + 1) (by omega) h l,
      Finset.sum_range_succ _ (j + 1), ← add_assoc zeroE]
    refine congrArg (· + blockSum (V c main_arg1) q (j + 1) l.val) ?_
    exact acc_apply c q j (by omega) (Nat.lt_of_succ_lt h) l

/-- After point 8·q + 7 it holds zero plus all eight block sums, times 0.75. -/
theorem last_apply (c : Dev nD) (q : ℕ) (h : 8 * q + 7 < cfg0.N) (l : Fin 2048) :
    outsAt0 V c (8 * q + 7) h (ix2 (0 : Fin 1) l)
      = (zeroE + ∑ s ∈ Finset.range 8, blockSum (V c main_arg1) q s l.val) * c075 := by
  have h0 : ¬(⟨8 * q + 7, h⟩ : Fin cfg0.N).val % 8 = 0 := by dsimp only; omega
  have h1 : (⟨8 * q + 7, h⟩ : Fin cfg0.N).val % 8 = 7 := by dsimp only; omega
  rw [outsAt0_C V c ⟨8 * q + 7, h⟩ h0 h1, out_last, scale_apply, accum_apply, iblk_sum V c q 7 (by omega) h l,
    Finset.sum_range_succ _ 7, ← add_assoc zeroE]
  refine congrArg (fun z => (z + blockSum (V c main_arg1) q 7 l.val) * c075) ?_
  exact acc_apply V c q 6 (by omega) (Nat.lt_of_succ_lt h) l

/-! ## From the written blocks to the array -/

/-- At a point n with n % 8 = 7 the block holds, at column l, the scaled sum over all eight row blocks. -/
theorem flush_apply (c : Dev nD) (n : ℕ) (hn : n < cfg0.N) (h7 : n % 8 = 7) (l : Fin 2048) :
    outsAt0 V c n hn (ix2 (0 : Fin 1) l)
      = (zeroE + ∑ s ∈ Finset.range 8, blockSum (V c main_arg1) (n / 8) s l.val) * c075 := by
  obtain ⟨q, rfl⟩ : ∃ q, n = 8 * q + 7 := ⟨n / 8, by omega⟩
  rw [last_apply V c q hn l, show (8 * q + 7) / 8 = q by omega]

/-- The scaled column sum at a column written `2048·q + l`, as the sum of the eight block sums. -/
theorem colsum_at (W : Cert.WsumDot.SW.Idx → EReal) (q : ℕ) (l : Fin 2048) (hq : q < 4) (j : Cert.WsumDot.SV.Idx)
    (hj : (j 1).val = 2048 * q + l.val) :
    Cert.WsumDot.colsum W j = (zeroE + ∑ s ∈ Finset.range 8, blockSum W q s l.val) * c075 := by
  unfold Cert.WsumDot.colsum
  refine congrArg (fun z => (zeroE + z) * c075) ?_
  rw [Finset.sum_range]
  refine Finset.sum_congr rfl fun s _ => ?_
  unfold blockSum
  refine Finset.sum_congr rfl fun r _ => ?_
  have hs := s.isLt
  have hr := r.isLt
  have hl := l.isLt
  unfold Wn
  rw [dif_pos ⟨by omega, by omega⟩]
  refine congrArg W ?_
  funext a
  apply Fin.ext
  match a with
  | ⟨0, _⟩ => rfl
  | ⟨1, _⟩ => exact hj

/-- What a writing point writes back is its block of the scaled column sums. -/
theorem flushed_eq (c : Dev nD) (t : Fin cfg0.N) (hf : (cfg0.win 1).flush t = true) :
    (dat0 V c).flushed 1 t = ((cfg0.win 1).blk t).view.read (Elt Ideal) (Cert.WsumDot.colsum (V c main_arg1)) := by
  have hN : t.val < 32 := lt_of_lt_of_eq t.isLt N_0
  have h7 : t.val % 8 = 7 := (flush0_1 t).mp hf
  obtain ⟨-, -, e2, e3⟩ := idx_facts t
  show (cfg0.win 1).cut (grid0.coords t) ((dat0 V c).after 1 t) = _
  rw [after0_1]
  funext y
  obtain ⟨u, l, rfl⟩ : ∃ (u : Fin 1) (l : Fin 2048), y = ix2 u l := ⟨y 0, y 1, eq_ix2 y⟩
  obtain rfl : u = 0 := Subsingleton.elim _ _
  rw [View.read_apply]
  show outsAt0 V c t.val t.isLt (ix2 (0 : Fin 1) l) = Cert.WsumDot.colsum (V c main_arg1) _
  rw [flush_apply V c t.val t.isLt h7 l]
  refine (colsum_at (V c main_arg1) (t.val / 8) l (by omega) _ ?_).symm
  show win0_1.index t (1 : Fin 2) * 2048 + 1 * l.val = 2048 * (t.val / 8) + l.val
  rw [e3]; omega

/-- Every column lies in the block of the point that closes its column block. -/
theorem cover (i : S1x8192.Idx) : ∃ t : Fin cfg0.N, (cfg0.win 1).flush t = true ∧ i ∈ ((cfg0.win 1).blk t).view.set := by
  have hi0 : (i 0).val < 1 := (i 0).isLt
  have hi1 : (i 1).val < 8192 := (i 1).isLt
  have hN : cfg0.N = 32 := N_0
  let t : Fin cfg0.N := ⟨8 * ((i 1).val / 2048) + 7, by omega⟩
  have ht : t.val = 8 * ((i 1).val / 2048) + 7 := rfl
  obtain ⟨-, -, e2, e3⟩ := idx_facts t
  refine ⟨t, (flush0_1 t).mpr (by omega), ?_⟩
  show i ∈ ((View.whole main_v0).slice (win0_1.rect t)).set
  rw [View.set_slice_whole, Rect.mem_set_unit]
  intro a
  match a with
  | ⟨0, _⟩ =>
    show win0_1.index t (0 : Fin 2) * 1 ≤ (i 0).val ∧ (i 0).val < win0_1.index t (0 : Fin 2) * 1 + 1
    rw [e2]; omega
  | ⟨1, _⟩ =>
    show win0_1.index t (1 : Fin 2) * 2048 ≤ (i 1).val ∧ (i 1).val < win0_1.index t (1 : Fin 2) * 2048 + 2048
    rw [e3]; omega

/-- The first region leaves its output array at the scaled column sums of the array it reads. -/
theorem final_colsum (c : Dev nD) :
    (dat0 V c).arrAt 1 cfg0.N = Cert.WsumDot.colsum (V c main_arg1) :=
  (dat0 V c).arrAt_eq_of_cover 1 _ (flushed_eq V c) cover

end Cert.KernelIdeal.ColSum

end
-- ==== Proof.DotValue.lean ====
/-
  The second kernel call's result, read off its frame for any contents of the arrays at entry.

  The call runs over 8 grid points. At point t it stages rows 512·t … 512·t + 511 of x (all 8192 columns), the whole
  row vector v (1 × 8192), and writes back a 512 × 1 block of the result at rows 512·t … 512·t + 511. The body multiplies
  each staged row of x elementwise by v and sums over the 8192 columns. So after the last point the result array holds,
  at (b, 0), the sum over k of x[b, k] · v[0, k].
-/
import proofs.«138940_j73315091744718_2_alg».proof.Proof.Gen.KernelIdeal.Frame
import proofs.«138940_j73315091744718_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.DotValue

open Cert.KernelIdeal Cert.KernelIdeal.Gen Idealize.ShloMosaic Idealize.ShloMosaic.ValueIdx Idealize.ShloMosaic.TcCoe
open Idealize.ShloMosaic.Pipeline (Dat)
open Facts₀

/-- A vector of 512 entries laid out as a 512 × 1 column reads, at (p, 0), the vector's entry p: both sit at row-major
    position p. -/
theorem column_apply {α : Type} (x : (⟨1, ![512]⟩ : Shape).Idx → α) (h : (⟨1, ![512]⟩ : Shape).ShapeCasts ⟨2, ![512, 1]⟩)
    (p : Fin 512) (u : Fin 1) : shapeCast ⟨2, ![512, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the 8192 columns of a 512 × 8192 vector, started from the zero word, reads at row p the sum over k of
    the entries (p, k). -/
theorem lane_sum_apply (src : FVec Ideal S512x8192 .f32) (h : S512x8192.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 8192, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- The body's payload at row p: the sum over the columns k of (staged x)[p, k] · (staged v)[0, k]. -/
theorem pay_apply (x0 : Vec Ideal S512x8192 .f32) (x1 : Vec Ideal S1x8192 .f32) (p : Fin 512) :
    k1_pay1 x0 x1 (ix2 p (0 : Fin 1)) = ∑ k : Fin 8192, x0 (ix2 p k) * x1 (ix2 (0 : Fin 1) k) := by
  unfold k1_pay1
  rw [column_apply, lane_sum_apply]
  refine Finset.sum_congr rfl fun k _ => ?_
  rw [mulf_apply, broadcastTo_1b_ab_apply, shapeCast_self]

/-- The zero offset of a block-wide access, as a function. -/
theorem hz : (![0, 0] : Fin 2 → Nat) = fun _ => 0 := funext fun a => by fin_cases a <;> rfl

/-- The block indices of the three windows at grid point t, decided over the 8 points: the window of x and the window of
    the result sit at block row t, block column 0; the window of v stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The staged block of x at point t reads, at (p, k), x at row 512·t + p, column k. -/
theorem xblk_apply (c : Dev nD) (t : Fin cfg1.N) (p : Fin 512) (k : Fin 8192) (r : Fin 4096)
    (hr : r.val = 512 * t.val + p.val) :
    (iblk1 V c 0 t : Vec Ideal S512x8192 .f32) (ix2 p k) = (V c main_arg0 : S4096x8192.Idx → EReal) (ix2 r k) := by
  obtain ⟨e0, e1, -, -, -, -⟩ := idx_facts t
  unfold iblk1
  rw [View.read_apply]
  show V c main_arg0 _ = V c main_arg0 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 8192 + 1 * k.val = k.val; rw [e1]; omega

/-- The staged block of v at any point is v itself: at (0, k) it reads v at (0, k). -/
theorem vblk_apply (c : Dev nD) (t : Fin cfg1.N) (k : Fin 8192) :
    (iblk1 V c 1 t : Vec Ideal S1x8192 .f32) (ix2 (0 : Fin 1) k) = (V c main_v0 : S1x8192.Idx → EReal) (ix2 (0 : Fin 1) k) := by
  obtain ⟨-, -, e2, e3, -, -⟩ := idx_facts t
  unfold iblk1
  rw [View.read_apply]
  show V c main_v0 _ = V c main_v0 _
  congr 1
  funext a
  apply Fin.ext
  match a with
  | ⟨0, _⟩ => show win1_1.index t (0 : Fin 2) * 1 + 1 * 0 = 0; rw [e2]
  | ⟨1, _⟩ => show win1_1.index t (1 : Fin 2) * 8192 + 1 * k.val = k.val; rw [e3]; omega

/-- What point t writes back is block t of the row-by-vector products of the entry contents: at (p, 0) of the block,
    the sum over k of x[512·t + p, k] · v[0, k]. -/
theorem flushed_eq (c : Dev nD) (t : Fin cfg1.N) :
    (dat1 V c).flushed 2 t = ((cfg1.win 2).blk t).view.read (Elt Ideal) (Cert.WsumDot.rowdot (V c main_arg0) (V c main_v0)) := by
  have ht : t.val < 8 := t.isLt
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S512x8192) hz, View.ld_unit_zero (S := S1x8192) hz]
  funext y
  obtain ⟨p, u, rfl⟩ : ∃ (p : Fin 512) (u : Fin 1), y = ix2 p u := ⟨y 0, y 1, eq_ix2 y⟩
  obtain rfl : u = 0 := Subsingleton.elim _ _
  show k1_pay1 (iblk1 V c 0 t) (iblk1 V c 1 t) (ix2 p (0 : Fin 1)) = _
  rw [pay_apply, View.read_apply]
  show _ = Cert.WsumDot.rowdot (V c main_arg0) (V c main_v0) (((cfg1.win 2).blk t).view.emb (ix2 p (0 : Fin 1)))
  unfold Cert.WsumDot.rowdot
  refine Finset.sum_congr rfl fun k _ => ?_
  rw [vblk_apply V c t k]
  refine congrArg (· * _) ?_
  refine xblk_apply V c t p k _ ?_
  show win1_2.index t (0 : Fin 2) * 512 + 1 * p.val = 512 * t.val + p.val
  rw [e4]; omega

/-- Every index (b, 0) of the result lies in the block some point writes back: the point b / 512. -/
theorem cover (i : S4096x1.Idx) :
    ∃ t : Fin cfg1.N, (cfg1.win 2).flush t = true ∧ i ∈ ((cfg1.win 2).blk t).view.set := by
  have h0 : (i 0).val < 4096 := (i 0).isLt
  have h1 : (i 1).val < 1 := (i 1).isLt
  have hN : grid1.N = 8 := N_1
  let t : Fin cfg1.N := ⟨(i 0).val / 512, by show (i 0).val / 512 < grid1.N; rw [hN]; omega⟩
  have htv : t.val = (i 0).val / 512 := rfl
  obtain ⟨-, -, -, -, e4, e5⟩ := idx_facts t
  refine ⟨t, flush1_2 t, ?_⟩
  show i ∈ ((View.whole main_v1).slice (win1_2.rect t)).set
  rw [View.set_slice_whole, Rect.mem_set_unit]
  intro a
  match a with
  | ⟨0, _⟩ =>
    show win1_2.index t (0 : Fin 2) * 512 ≤ (i 0).val ∧ (i 0).val < win1_2.index t (0 : Fin 2) * 512 + 512
    rw [e4, htv]; omega
  | ⟨1, _⟩ =>
    show win1_2.index t (1 : Fin 2) * 1 ≤ (i 1).val ∧ (i 1).val < win1_2.index t (1 : Fin 2) * 1 + 1
    rw [e5]; omega

/-- After the last point the result array holds, at (b, 0), the sum over k of x[b, k] · v[0, k], for the contents x and
    v found at entry. -/
theorem final_out (c : Dev nD) :
    (dat1 V c).arrAt 2 cfg1.N = Cert.WsumDot.rowdot (V c main_arg0) (V c main_v0) :=
  (dat1 V c).arrAt_eq_of_cover 2 _ (fun t _ => flushed_eq V c t) (cover)

end Cert.KernelIdeal.DotValue

end
-- ==== Proof.lean ====
/-
  The kernel computes, for x : [4096, 8192] and W : [8192, 8192],
      out[b] = Σ_i x[b,i] · v[i],   v[i] = (0 + Σ_{s<8} Σ_{r<1024} W[1024·s + r, i]) · 0.75,
  in two pipelined regions (the scaled column sums of W accumulated over a grid, then one dot product per row of x);
  the reference computes
      out[b] = (0 + Σ_h ((Σ_i x[b,i] · W[h,i]) / 2)) · 1.5 .
  Over the extended reals the two agree wherever every entry of x and W is a real number: both are
  0.75 · Σ_h Σ_i x[b,i] · W[h,i] (the order of a finite double sum of reals, distributivity, and 0.75 = 1.5 / 2).
  The precondition says exactly that every entry is finite.

  The three frames: the kernel's two are the generated frame theorems; the reference's is its run with the result
  dropped.  The idealization rewrote nothing, so `preserves` is trivial.  For `algebraic`: the kernel's run ends with
  the result array at what the second region's write-backs leave, which is the row-dot of x with the array the first
  region leaves, which is the scaled column sums of W; the reference's run ends at its composed term, read index by
  index; the two functions are equal by the algebra above under the finiteness the precondition gives.
-/
import proofs.«138940_j73315091744718_2_alg».proof.Defs
import proofs.«138940_j73315091744718_2_alg».proof.Proof.Gen.Kernel
import proofs.«138940_j73315091744718_2_alg».proof.Proof.Gen.Kernel.Skeleton
import proofs.«138940_j73315091744718_2_alg».proof.Proof.Gen.Kernel.Launch
import proofs.«138940_j73315091744718_2_alg».proof.Proof.Gen.Kernel.Points
import proofs.«138940_j73315091744718_2_alg».proof.Proof.Gen.Kernel.Frame
import proofs.«138940_j73315091744718_2_alg».proof.Proof.Gen.KernelIdeal
import proofs.«138940_j73315091744718_2_alg».proof.Proof.Gen.KernelIdeal.Skeleton
import proofs.«138940_j73315091744718_2_alg».proof.Proof.Gen.KernelIdeal.Launch
import proofs.«138940_j73315091744718_2_alg».proof.Proof.Gen.KernelIdeal.Points
import proofs.«138940_j73315091744718_2_alg».proof.Proof.Gen.KernelIdeal.Frame
import proofs.«138940_j73315091744718_2_alg».proof.Proof.Gen.ReferenceIdeal
import proofs.«138940_j73315091744718_2_alg».proof.Proof.Gen.ReferenceIdeal.Run
import proofs.«138940_j73315091744718_2_alg».proof.Proof.Gen.ReferenceIdeal.Read
import proofs.«138940_j73315091744718_2_alg».proof.Proof.Gen.Pre_finite_inputs
import proofs.«138940_j73315091744718_2_alg».proof.Proof.Spec
import proofs.«138940_j73315091744718_2_alg».proof.Proof.Algebra
import proofs.«138940_j73315091744718_2_alg».proof.Proof.RefSide
import proofs.«138940_j73315091744718_2_alg».proof.Proof.Finite
import proofs.«138940_j73315091744718_2_alg».proof.Proof.Run
import proofs.«138940_j73315091744718_2_alg».proof.Proof.ColSumValue
import proofs.«138940_j73315091744718_2_alg».proof.Proof.DotValue
import Idealize.ShloMosaic.Adequacy
import Idealize.ShloMosaic.Init

noncomputable section

namespace Cert.Proof

open Idealize.ShloMosaic Idealize.ShloMosaic.TcCoe Idealize.SL.Sem

/-- The kernel's result array after the run is the row-dot of x with the scaled column sums of W: the second region's
    array is the row-dot of the arrays it finds, the first argument found as launched, the row vector found as the first
    region leaves it, and that is the scaled column sums of the second argument as launched. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat1 (Cert.KernelIdeal.Gen.V1 m ρ) c).arrAt 2 Cert.KernelIdeal.cfg1.N
      = Cert.WsumDot.kernelOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.DotValue.final_out (Cert.KernelIdeal.Gen.V1 m ρ) c, Cert.KernelIdeal.RunValue.V1_main_arg0,
    Cert.KernelIdeal.RunValue.V1_main_v0, Cert.KernelIdeal.ColSum.final_colsum (Cert.KernelIdeal.Gen.V0 m ρ) c,
    Cert.KernelIdeal.RunValue.V0_main_arg1]
  rfl

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the result array at the same function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.WsumDot.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_value m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v6_eq, Cert.ReferenceIdeal.RefValue.ref_eq, (hagree c).1, (hagree c).2]
    exact (Cert.WsumDot.kernelOut_eq_refOut _ _ (Cert.Proof.Finite.finite_of_pre m hpre c).1
      (Cert.Proof.Finite.finite_of_pre m hpre c).2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
